-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x64 : Shape := ⟨2, ![524288, 64]⟩
abbrev S256x64 : Shape := ⟨2, ![256, 64]⟩
abbrev S1x256 : Shape := ⟨2, ![1, 256]⟩
abbrev S1 : Shape := ⟨1, ![1]⟩
abbrev S_ : Shape := ⟨0, ![]⟩

class Facts : Prop where
  bcast_S_S524288x64 : S_.BroadcastsInDim S524288x64 (![] : Fin 0 → Fin S524288x64.rank)
  reducesTo_S524288x64_S_d0_1 : S524288x64.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S524288x64 .f32) (main_arg1 : FVec F S256x64 .f32) (main_arg2 : FVec F S1x256 .f32) (main_arg3 : FVec F S1 .f32) : IVec S_ 1 :=
  let main_v0 : FVec F S524288x64 .f32 := Host.absf main_arg0
  let main_cst : FVec F S_ .f32 := constant S_ .f32 0x7F800000#32
  let main_v1 : FVec F S524288x64 .f32 := broadcastInDim S524288x64 ![] bcast_S_S524288x64 main_cst
  let main_v2 : IVec S524288x64 1 := cmpf .olt main_v0 main_v1
  let main_c : IVec S_ 1 := constantI S_ 1 1#1
  let main_v3 : IVec S_ 1 := (fun x v => Host.reduce IntOp.andi x v reducesTo_S524288x64_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S524288x64 : Shape := ⟨2, ![524288, 64]⟩
abbrev S256x64 : Shape := ⟨2, ![256, 64]⟩
abbrev S1x256 : Shape := ⟨2, ![1, 256]⟩
abbrev S1 : Shape := ⟨1, ![1]⟩
abbrev S_ : Shape := ⟨0, ![]⟩
abbrev S256 : Shape := ⟨1, ![256]⟩
abbrev S256x1 : Shape := ⟨2, ![256, 1]⟩
abbrev S524288 : Shape := ⟨1, ![524288]⟩
abbrev S4096x64 : Shape := ⟨2, ![4096, 64]⟩
abbrev S4096 : Shape := ⟨1, ![4096]⟩
abbrev S4096x1 : Shape := ⟨2, ![4096, 1]⟩
abbrev S64x256 : Shape := ⟨2, ![64, 256]⟩
abbrev S4096x256 : Shape := ⟨2, ![4096, 256]⟩
abbrev S524288x1 : Shape := ⟨2, ![524288, 1]⟩

abbrev nBuf : Space → Nat
  | .hbm => 14
  | .vmem => 8
  | .smem => 0
  | _ => 0

abbrev bufTy : (tb : Table) → Fin (tcTables nBuf tb) → BufTy
  | .hbm, ⟨0, _⟩ => ⟨S524288x64, .f32⟩
  | .hbm, ⟨1, _⟩ => ⟨S256x64, .f32⟩
  | .hbm, ⟨2, _⟩ => ⟨S1x256, .f32⟩
  | .hbm, ⟨3, _⟩ => ⟨S1, .f32⟩
  | .hbm, ⟨4, _⟩ => ⟨S_, .f32⟩
  | .hbm, ⟨5, _⟩ => ⟨S256x64, .f32⟩
  | .hbm, ⟨6, _⟩ => ⟨S256x64, .f32⟩
  | .hbm, ⟨7, _⟩ => ⟨S256x64, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S1x256, .f32⟩
  | .hbm, ⟨12, _⟩ => ⟨S524288, .f32⟩
  | .hbm, ⟨13, _⟩ => ⟨S524288x1, .f32⟩
  | .local _ .vmem, ⟨0, _⟩ => ⟨S4096x64, .f32⟩
  | .local _ .vmem, ⟨1, _⟩ => ⟨S4096x64, .f32⟩
  | .local _ .vmem, ⟨2, _⟩ => ⟨S256x64, .f32⟩
  | .local _ .vmem, ⟨3, _⟩ => ⟨S1x256, .f32⟩
  | .local _ .vmem, ⟨4, _⟩ => ⟨S1x256, .f32⟩
  | .local _ .vmem, ⟨5, _⟩ => ⟨S1, .f32⟩
  | .local _ .vmem, ⟨6, _⟩ => ⟨S4096, .f32⟩
  | .local _ .vmem, ⟨7, _⟩ => ⟨S4096, .f32⟩
  | _, _ => ⟨S524288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S256x64 : S_.BroadcastsInDim S256x64 (![] : Fin 0 → Fin S256x64.rank)
  reducesTo_S256x64_S256_d1 : S256x64.ReducesTo [1] S256
  h_S_ : 0 < S_.numel
  bcast_S256_S256x1_0 : S256.BroadcastsInDim S256x1 (![0] : Fin 1 → Fin S256x1.rank)
  transposes_S256x1_S1x256_1_0 : S256x1.Transposes [1, 0] S1x256
  inb_S4096x64_S4096x64_0_0 : ∀ a, (![0, 0] : Fin 2 → Nat) a + S4096x64.size a ≤ S4096x64.size a
  h_S4096x64 : 0 < S4096x64.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S256 : S1x256.ShapeCasts S256
  inb_S1_S1_0 : ∀ a, (![0] : Fin 1 → Nat) a + S1.size a ≤ S1.size a
  h_S1 : 0 < S1.numel
  bitsLt_bf16_f32 : FTy.bits .bf16 < FTy.bits .f32
  reduces_S4096x64_S4096 : S4096x64.Reduces [1] S4096
  shapeCasts_S4096_S4096x1 : S4096.ShapeCasts S4096x1
  transposes_S256x64_p1_0_S64x256 : S256x64.Transposes [1, 0] S64x256
  broadcasts_S4096x1_S4096x256 : S4096x1.Broadcasts S4096x256
  broadcasts_S1x256_S4096x256 : S1x256.Broadcasts S4096x256
  shapeCasts_S256_S1x256 : S256.ShapeCasts S1x256
  reduces_S4096x256_S4096 : S4096x256.Reduces [1] S4096
  broadcasts_S1_S4096 : S1.Broadcasts S4096
  inb_S4096_S4096_0 : ∀ a, (![0] : Fin 1 → Nat) a + S4096.size a ≤ S4096.size a
  h_S4096 : 0 < S4096.numel
  shapeCasts_S524288_S524288x1 : S524288.ShapeCasts S524288x1
  dot_S4096x64_S64x256_S4096x256_1_0_0_1_n_n_wf : DotDims.WF S4096x64 S64x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S524288x64.size a
  hwx0_0 : ∀ i : grid0.Coords, EltTy.bits .f32 = 32 ∨ (Rect.block (s := S524288x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S524288.size a
  hwx0_5 : ∀ i : grid0.Coords, EltTy.bits .f32 = 32 ∨ (Rect.block (s := S524288) S4096.size (cc0_transform_5 i) (hinb0_5 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S524288x64 : Shape := ⟨2, ![524288, 64]⟩
abbrev S256x64 : Shape := ⟨2, ![256, 64]⟩
abbrev S1x256 : Shape := ⟨2, ![1, 256]⟩
abbrev S1 : Shape := ⟨1, ![1]⟩
abbrev S_ : Shape := ⟨0, ![]⟩
abbrev S524288 : Shape := ⟨1, ![524288]⟩
abbrev S524288x1 : Shape := ⟨2, ![524288, 1]⟩
abbrev S256 : Shape := ⟨1, ![256]⟩
abbrev S524288x256 : Shape := ⟨2, ![524288, 256]⟩
abbrev S256x1 : Shape := ⟨2, ![256, 1]⟩
abbrev S1x1 : Shape := ⟨2, ![1, 1]⟩

abbrev nBuf : Space → Nat
  | .hbm => 30
  | .vmem => 0
  | .smem => 0
  | _ => 0

abbrev bufTy : (tb : Table) → Fin (tcTables nBuf tb) → BufTy
  | .hbm, ⟨0, _⟩ => ⟨S524288x64, .f32⟩
  | .hbm, ⟨1, _⟩ => ⟨S256x64, .f32⟩
  | .hbm, ⟨2, _⟩ => ⟨S1x256, .f32⟩
  | .hbm, ⟨3, _⟩ => ⟨S1, .f32⟩
  | .hbm, ⟨4, _⟩ => ⟨S524288x64, .f32⟩
  | .hbm, ⟨5, _⟩ => ⟨S_, .f32⟩
  | .hbm, ⟨6, _⟩ => ⟨S524288, .f32⟩
  | .hbm, ⟨7, _⟩ => ⟨S524288x1, .f32⟩
  | .hbm, ⟨8, _⟩ => ⟨S256x64, .f32⟩
  | .hbm, ⟨9, _⟩ => ⟨S_, .f32⟩
  | .hbm, ⟨10, _⟩ => ⟨S256, .f32⟩
  | .hbm, ⟨11, _⟩ => ⟨S524288x256, .f32⟩
  | .hbm, ⟨12, _⟩ => ⟨S_, .f32⟩
  | .hbm, ⟨13, _⟩ => ⟨S524288x256, .f32⟩
  | .hbm, ⟨14, _⟩ => ⟨S524288x256, .f32⟩
  | .hbm, ⟨15, _⟩ => ⟨S524288x256, .f32⟩
  | .hbm, ⟨16, _⟩ => ⟨S524288x256, .f32⟩
  | .hbm, ⟨17, _⟩ => ⟨S1x256, .f32⟩
  | .hbm, ⟨18, _⟩ => ⟨S524288x256, .f32⟩
  | .hbm, ⟨19, _⟩ => ⟨S524288x256, .f32⟩
  | .hbm, ⟨20, _⟩ => ⟨S_, .f32⟩
  | .hbm, ⟨21, _⟩ => ⟨S524288x256, .f32⟩
  | .hbm, ⟨22, _⟩ => ⟨S524288x256, .f32⟩
  | .hbm, ⟨23, _⟩ => ⟨S524288x256, .f32⟩
  | .hbm, ⟨24, _⟩ => ⟨S524288x256, .f32⟩
  | .hbm, ⟨25, _⟩ => ⟨S256x1, .f32⟩
  | .hbm, ⟨26, _⟩ => ⟨S524288x1, .f32⟩
  | .hbm, ⟨27, _⟩ => ⟨S1x1, .f32⟩
  | .hbm, ⟨28, _⟩ => ⟨S524288x1, .f32⟩
  | .hbm, ⟨29, _⟩ => ⟨S524288x1, .f32⟩
  | _, _ => ⟨S524288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  reducesTo_S524288x64_S524288_d1 : S524288x64.ReducesTo [1] S524288
  h_S_ : 0 < S_.numel
  bcast_S524288_S524288x1_0 : S524288.BroadcastsInDim S524288x1 (![0] : Fin 1 → Fin S524288x1.rank)
  reducesTo_S256x64_S256_d1 : S256x64.ReducesTo [1] S256
  bcast_S_S524288x256 : S_.BroadcastsInDim S524288x256 (![] : Fin 0 → Fin S524288x256.rank)
  bcast_S524288x1_S524288x256_0_1 : S524288x1.BroadcastsInDim S524288x256 (![0, 1] : Fin 2 → Fin S524288x256.rank)
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  transposes_S1x256_S256x1_1_0 : S1x256.Transposes [1, 0] S256x1
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  dot_S524288x64_S256x64_S524288x256_1_1_0_0_n_n_wf : DotDims.WF S524288x64 S256x64 S524288x256 [1] [1] [0] [0] [] []
  dot_S524288x256_S256x1_S524288x1_1_0_0_1_n_n_wf : DotDims.WF S524288x256 S256x1 S524288x1 [1] [0] [0] [1] [] []

variable [Facts₀]

def dot_S524288x64_S256x64_S524288x256_1_1_0_0_n_n : DotDims S524288x64 S256x64 S524288x256 where
  lhsContracting := [1]
  rhsContracting := [1]
  lhsNonContracting := [0]
  rhsNonContracting := [0]
  lhsBatch := []
  rhsBatch := []
  wf := dot_S524288x64_S256x64_S524288x256_1_1_0_0_n_n_wf
def dot_S524288x256_S256x1_S524288x1_1_0_0_1_n_n : DotDims S524288x256 S256x1 S524288x1 where
  lhsContracting := [1]
  rhsContracting := [0]
  lhsNonContracting := [0]
  rhsNonContracting := [1]
  lhsBatch := []
  rhsBatch := []
  wf := dot_S524288x256_S256x1_S524288x1_1_0_0_1_n_n_wf

class Facts : Prop extends Facts₀ where

variable [Facts]
-- ==== Proof.RbfLaw.lean ====
/-
  The mathematics that joins the two programs, with no program in sight.

  For a row x, a centre c (both of length D) and a real factor t, write
    p = Σ_d x_d²,  q = Σ_d x_d·c_d,  r = Σ_d c_d².
  One side forms the clamped negative squared distance as  min((Σ_d x_d·(t·c_d)) − p − r, 0),
  the other as  −max((p − t·q) + r, 0).  Over the reals these agree: Σ_d x_d·(t·c_d) = t·q, the
  negation of p − t·q + r is t·q − p − r, and −max(a, 0) = min(−a, 0).  On the extended reals the
  negation of a sum and a factor moved across a sum both fail at the infinities, so the law is stated for
  entries that are real numbers; every sum is then the image of a real sum.
-/
import Idealize.ShloMosaic.PureOps.Ideal
import Idealize.ShloMosaic.PureOps.Ideal.Laws

noncomputable section

namespace Cert.RbfLaw

open Idealize.ShloMosaic

/-- The image in the extended reals of a finite sum of reals is the sum of the images. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity: min(t·q − p − r, 0) = −max(p − t·q + r, 0). -/
theorem real_clamp (p q r t : ℝ) : min (t * q - p - r) 0 = -(max (p - t * q + r) 0) := by
  rw [← min_neg_neg, neg_zero]
  congr 1
  ring

/-- The law on the extended reals, for real entries: the clamped negative squared distance formed from the
    doubled centre equals the negated clamped squared distance formed from the plain one.  The two `0 +` on the
    right, and the one on the left, are the initial values of host sums, kept as they are printed. -/
theorem clamp_law {D : ℕ} (t : ℝ) (x c : Fin D → ℝ) :
    min (((∑ d, (x d : EReal) * ((t : EReal) * (c d : EReal))) - ∑ d, (x d : EReal) * (x d : EReal))
          - (0 + ∑ d, (c d : EReal) * (c d : EReal))) 0
      = -(max (((0 + ∑ d, (x d : EReal) * (x d : EReal)) - (t : EReal) * ∑ d, (x d : EReal) * (c d : EReal))
          + (0 + ∑ d, (c d : EReal) * (c d : EReal))) 0) := by
  have hq : (∑ d, x d * (t * c d)) = t * ∑ d, x d * c d := by
    rw [Finset.mul_sum]
    exact Finset.sum_congr rfl fun d _ => by ring
  simp only [zero_add, ← EReal.coe_mul, ← coe_sum, ← EReal.coe_sub, ← EReal.coe_add]
  rw [← EReal.coe_zero, ← EReal.coe_strictMono.monotone.map_min, ← EReal.coe_strictMono.monotone.map_max,
    ← EReal.coe_neg, hq, real_clamp]

/-- The word of `2.0` in binary32 denotes the real number 2. -/
theorem two_f32 : Ideal.ofBits .f32 0x40000000#32 = ((2 : ℝ) : EReal) := by
  simp [Ideal.ofBits, Ideal.ieee, -EReal.coe_mul]
  norm_num

end Cert.RbfLaw

end
-- ==== Proof.RbfSpec.lean ====
/-
  The function both programs compute: a radial-basis feature map followed by a linear head.

  For a row n of X (524288 rows of 64 entries), centres C (256 of 64 entries), head weights W (one row of 256)
  and a bias B (one entry):
      out n = Σ_h exp(−max(‖X_n‖² − 2·⟨X_n, C_h⟩ + ‖C_h‖², 0)) · W_h + B.
  `headRef` writes it with the clamped squared distance as above, the way a sum over a host array carries its
  initial value `0 +`.  `headKer` writes it from a table `C2` of doubled centres and a table `Nrm` of the centres'
  squared norms, as  Σ_h exp(min(⟨X_n, C2_h⟩ − ‖X_n‖² − Nrm_h, 0)) · W_h + B.  With C2 = 2·C and Nrm = ‖C‖² the two
  are one function wherever X and C hold real numbers (`headKer_eq_headRef`): only the clamped distance differs,
  and there the law of RbfLaw applies row by row.
-/
import Idealize.ShloMosaic.Lib.ValueIdx
import proofs.«162400_j16707422782018_2_alg».proof.Proof.RbfLaw

noncomputable section

namespace Cert.RbfSpec

open Idealize.ShloMosaic Idealize.ShloMosaic.ValueIdx

abbrev ArrX := (⟨2, ![524288, 64]⟩ : Shape).Idx → EReal
abbrev ArrC := (⟨2, ![256, 64]⟩ : Shape).Idx → EReal
abbrev ArrW := (⟨2, ![1, 256]⟩ : Shape).Idx → EReal
abbrev ArrB := (⟨1, ![1]⟩ : Shape).Idx → EReal

/-- The factor 2, as the binary32 word both programs carry. -/
abbrev two : EReal := Ideal.ofBits .f32 0x40000000#32

/-- The squared distance between row `n` and centre `h`, expanded: ‖X_n‖² − 2·⟨X_n, C_h⟩ + ‖C_h‖². -/
def sqDist (X : ArrX) (C : ArrC) (n : Fin 524288) (h : Fin 256) : EReal :=
  ((0 + ∑ d : Fin 64, X (ix2 n d) * X (ix2 n d)) - two * ∑ d : Fin 64, X (ix2 n d) * C (ix2 h d))
    + (0 + ∑ d : Fin 64, C (ix2 h d) * C (ix2 h d))

/-- Row `n` of the result, with the distance clamped below at 0 and then negated. -/
def headRef (X : ArrX) (C : ArrC) (W : ArrW) (B : ArrB) (n : Fin 524288) : EReal :=
  (∑ h : Fin 256, Ideal.exp (-(max (sqDist X C n h) 0)) * W (ix2 (0 : Fin 1) h)) + B (ix1 (0 : Fin 1))

/-- The negated squared distance from a table of doubled centres and a table of squared norms. -/
def negSqDist (X : ArrX) (C2 : ArrC) (Nrm : ArrW) (n : Fin 524288) (h : Fin 256) : EReal :=
  ((∑ d : Fin 64, X (ix2 n d) * C2 (ix2 h d)) - ∑ d : Fin 64, X (ix2 n d) * X (ix2 n d)) - Nrm (ix2 (0 : Fin 1) h)

/-- Row `n` of the result, with the negated distance clamped above at 0. -/
def headKer (X : ArrX) (C2 : ArrC) (Nrm : ArrW) (W : ArrW) (B : ArrB) (n : Fin 524288) : EReal :=
  (∑ h : Fin 256, Ideal.exp (min (negSqDist X C2 Nrm n h) 0) * W (ix2 (0 : Fin 1) h)) + B (ix1 (0 : Fin 1))

/-- With the doubled centres and the squared norms computed from `C`, the two forms agree at every row, for
    arrays of real numbers. -/
theorem headKer_eq_headRef (X : ArrX) (C : ArrC) (W : ArrW) (B : ArrB)
    (hX : ∀ j, ∃ r : ℝ, X j = (r : EReal)) (hC : ∀ j, ∃ r : ℝ, C j = (r : EReal)) (n : Fin 524288) :
    headKer X (fun j => two * C j) (fun j => 0 + ∑ d : Fin 64, C (ix2 (j 1) d) * C (ix2 (j 1) d)) W B n
      = headRef X C W B n := by
  choose xr hxr using hX
  choose cr hcr using hC
  unfold headKer headRef negSqDist sqDist
  refine congrArg (· + B (ix1 (0 : Fin 1))) (Finset.sum_congr rfl fun h _ => ?_)
  refine congrArg (fun e => Ideal.exp e * W (ix2 (0 : Fin 1) h)) ?_
  simp only [hxr, hcr, two, Cert.RbfLaw.two_f32]
  exact Cert.RbfLaw.clamp_law 2 (fun d => xr (ix2 n d)) (fun d => cr (ix2 h d))

end Cert.RbfSpec

end
-- ==== Proof.RbfRef.lean ====
/-
  The reference program's result, read at an index, is `headRef` of its four arguments.

  The generated stages read one operation at a time; chained, they give the result at row n as a sum over the 256
  centres of exp(−max(distance, 0)) times the head weight, plus the bias, where each operand is read at an index
  composed from the stages' index maps.  Each composed index is the evident one: row n and entry d of X, centre h and
  entry d of C, the one row of W at h, the one entry of B.
-/
import proofs.«162400_j16707422782018_2_alg».proof.Proof.Gen.ReferenceIdeal.Read
import proofs.«162400_j16707422782018_2_alg».proof.Proof.RbfSpec

noncomputable section

namespace Cert.RbfRef

open Cert.ReferenceIdeal Cert.ReferenceIdeal.Read Idealize.ShloMosaic Idealize.ShloMosaic.ValueIdx Cert.RbfSpec

variable (X : (⟨S524288x64, .f32⟩ : BufTy).Contents (Elt Ideal)) (C : (⟨S256x64, .f32⟩ : BufTy).Contents (Elt Ideal))
  (W : (⟨S1x256, .f32⟩ : BufTy).Contents (Elt Ideal)) (B : (⟨S1, .f32⟩ : BufTy).Contents (Elt Ideal))

/-- Row `n` of the reference's result (its one column `u`) is `headRef` at `n`. -/
theorem result_apply (n : Fin 524288) (u : Fin 1) :
    val_main_v21 (F := Ideal) X C W B (ix2 n u) = headRef X C W B n := by
  -- the composed index maps, each the evident index
  have eXX : ∀ (h : Fin 256) (d : Fin 64),
      idx_main_v1 (idx_main_v2 (idx_main_v8 (lidx_main_v18 (ix2 n u) h))) d = ix2 n d := fun h d =>
    funext fun a => Fin.ext (by match a with | ⟨0, _⟩ => rfl | ⟨1, _⟩ => rfl)
  have eXl : ∀ (h : Fin 256) (d : Fin 64), lidx_main_v5 (lidx_main_v18 (ix2 n u) h) d = ix2 n d := fun h d =>
    funext fun a => Fin.ext (by match a with | ⟨0, _⟩ => rfl | ⟨1, _⟩ => rfl)
  have eCr : ∀ (h : Fin 256) (d : Fin 64), ridx_main_v5 (lidx_main_v18 (ix2 n u) h) d = ix2 h d := fun h d =>
    funext fun a => Fin.ext (by match a with | ⟨0, _⟩ => rfl | ⟨1, _⟩ => rfl)
  have eCC : ∀ (h : Fin 256) (d : Fin 64),
      idx_main_v4 (idx_main_v10 (idx_main_v11 (lidx_main_v18 (ix2 n u) h))) d = ix2 h d := fun h d =>
    funext fun a => Fin.ext (by match a with | ⟨0, _⟩ => rfl | ⟨1, _⟩ => rfl)
  have eW : ∀ h : Fin 256, idx_main_v17 (ridx_main_v18 (ix2 n u) h) = ix2 (0 : Fin 1) h := fun h =>
    funext fun a => Fin.ext (by
      match a with
      | ⟨0, _⟩ => show u.val = 0; omega
      | ⟨1, _⟩ => rfl)
  have eB : idx_main_v19 (idx_main_v20 (ix2 n u)) = ix1 (0 : Fin 1) :=
    funext fun a => Fin.ext (by match a with | ⟨0, _⟩ => rfl)
  simp only [val_main_v21_apply, val_main_v20_apply, val_main_v19_apply, val_main_v18_apply, val_main_v17_apply,
    val_main_v16_apply, val_main_v15_apply, val_main_v14_apply, val_main_v13_apply, val_main_v12_apply, val_main_v11_apply,
    val_main_v10_apply, val_main_v9_apply, val_main_v8_apply, val_main_v7_apply, val_main_v6_apply, val_main_v5_apply,
    val_main_v4_apply, val_main_v3_apply, val_main_v2_apply, val_main_v1_apply, val_main_v0_apply,
    val_main_cst_apply, val_main_cst_0_apply, val_main_cst_1_apply, val_main_cst_2_apply,
    Ideal.addf_def, Ideal.subf_def, Ideal.mulf_def, Ideal.maximumf_def, Ideal.hostNegf_def, Ideal.negf_def,
    Ideal.hostUnary_exp_def, Ideal.ofBits_def, Ideal.ofBits_zero_f32, eXX, eXl, eCr, eCC, eW, eB]
  rfl

/-- The reference's whole result: at every index, `headRef` at the index's row. -/
theorem result_eq : val_main_v21 (F := Ideal) X C W B = fun i => headRef X C W B (i 0) := by
  funext i
  rw [eq_ix2 i]
  exact result_apply X C W B (i 0) (i 1)

end Cert.RbfRef

end
-- ==== Proof.LibKeepdims.lean ====
/-
  Two layout operations read at an index, in the column ("keepdims") forms a row reduction that keeps its axis
  produces: a vector of length `a` recast as an `[a, 1]` column, and an `[a, 1]` column broadcast along its unit
  axis to `[a, b]`.  Both are stated over indices built from literal coordinates.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` vector cast to an `[a, 1]` column reads, at `(i, u)`, the vector at `i`, whatever the unit
    coordinate `u`: both positions have the same row-major offset `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.RbfBody.lean ====
/-
  What the kernel's body stores for one block of 4096 rows, read at a row.

  The body loads a block x0 of X (4096 rows of 64), the table x1 of doubled centres (256 of 64), the row x2 of the
  centres' squared norms, the row x3 of head weights and the bias x4, and stores one value per row p:
      Σ_h exp(min(⟨x0_p, x1_h⟩ − ‖x0_p‖² − x2_h, 0)) · x3_h + x4.
  The inner product is the matrix unit's contraction over the 64 entries (the narrowing of its operands is the
  identity on exact values, and the transposed table read at (d, h) is the table at (h, d)); ‖x0_p‖² is a sum along
  the row, recast as a column and spread over the 256 centres; x2 and x3 are rows spread over the 4096 rows; the outer
  sum is again a sum along a row.
-/
import proofs.«162400_j16707422782018_2_alg».proof.Proof.Gen.KernelIdeal.Skeleton
import proofs.«162400_j16707422782018_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.RbfBody

open Cert.KernelIdeal Cert.KernelIdeal.Gen Idealize.ShloMosaic Idealize.ShloMosaic.ValueIdx

/-- The exponential of a vector, read at an index. -/
theorem exp_apply {s : Shape} {φ : FTy} (a : FVec Ideal s φ) (i : s.Idx) : exp a i = Ideal.exp (a i) := rfl

/-- A sum along the rows of a 4096 × K vector, read at row `p`: the sum of that row's K entries. -/
theorem rowSum_apply {K : ℕ} (src : FVec Ideal ⟨2, ![4096, K]⟩ .f32)
    (h : (⟨2, ![4096, K]⟩ : Shape).Reduces [1] ⟨1, ![4096]⟩) (hφ : FKind.Formats .f32)
    (hacc : (0x00000000#32 : BitVec 32) = 0x00000000#32) (p : Fin 4096) :
    multiReduction .add [1] ⟨1, ![4096]⟩ src 0x00000000#32 h hφ hacc (ix1 p) = ∑ k : Fin K, src (ix2 p k) := by
  refine (Ideal.multiReduction_add_single src 0x00000000#32 h hφ hacc (ix1 p)).trans ?_
  exact Finset.sum_congr rfl fun k _ => congrArg src (funext fun a => Fin.ext (by
    match a with
    | ⟨0, _⟩ => rfl
    | ⟨1, _⟩ => rfl))

/-! The matrix product's operand indices, coordinate by coordinate: at output index `i` and contraction index `q`
    the left operand is read at (i 0, q) and the right one at (q, i 1). -/

theorem lhs_0 (i : S4096x256.Idx) (q : dot_S4096x64_S64x256_S4096x256_1_0_0_1_n_n.contr.Idx) :
    (dot_S4096x64_S64x256_S4096x256_1_0_0_1_n_n.lhsIdx i q 0).val = (i 0).val := by
  unfold DotDims.lhsIdx
  rw [dif_neg (show ¬(0 : Fin S4096x64.rank) ∈ dot_S4096x64_S64x256_S4096x256_1_0_0_1_n_n.lhsBatch by decide),
    dif_pos (show (0 : Fin S4096x64.rank) ∈ dot_S4096x64_S64x256_S4096x256_1_0_0_1_n_n.lhsNonContracting by decide)]
  rfl
theorem lhs_1 (i : S4096x256.Idx) (q : dot_S4096x64_S64x256_S4096x256_1_0_0_1_n_n.contr.Idx) :
    (dot_S4096x64_S64x256_S4096x256_1_0_0_1_n_n.lhsIdx i q 1).val = (q ⟨0, by decide⟩).val :=
  dot_S4096x64_S64x256_S4096x256_1_0_0_1_n_n.lhsIdx_val_of_single rfl i q
theorem rhs_0 (i : S4096x256.Idx) (q : dot_S4096x64_S64x256_S4096x256_1_0_0_1_n_n.contr.Idx) :
    (dot_S4096x64_S64x256_S4096x256_1_0_0_1_n_n.rhsIdx i q 0).val = (q ⟨0, by decide⟩).val :=
  dot_S4096x64_S64x256_S4096x256_1_0_0_1_n_n.rhsIdx_val_of_single rfl i q
theorem rhs_1 (i : S4096x256.Idx) (q : dot_S4096x64_S64x256_S4096x256_1_0_0_1_n_n.contr.Idx) :
    (dot_S4096x64_S64x256_S4096x256_1_0_0_1_n_n.rhsIdx i q 1).val = (i 1).val := by
  unfold DotDims.rhsIdx
  rw [dif_neg (show ¬(1 : Fin S64x256.rank) ∈ dot_S4096x64_S64x256_S4096x256_1_0_0_1_n_n.rhsBatch by decide),
    dif_pos (show (1 : Fin S64x256.rank) ∈ dot_S4096x64_S64x256_S4096x256_1_0_0_1_n_n.rhsNonContracting by decide)]
  rfl

/-- The 4096 × 64 by 64 × 256 product into a zero accumulator, read at (p, h): the sum over the 64 entries. -/
theorem dot_apply (l : FVec Ideal S4096x64 .bf16) (r : FVec Ideal S64x256 .bf16) (p : Fin 4096) (h : Fin 256) :
    matmul dot_S4096x64_S64x256_S4096x256_1_0_0_1_n_n none l r (constant S4096x256 .f32 0x00000000#32) (ix2 p h)
      = ∑ k : Fin 64, l (ix2 p k) * r (ix2 k h) := by
  simp only [matmul]
  rw [Ideal.matmul_constant_zero_apply,
    ← Equiv.sum_comp (ValueIdx.contrEquiv1 dot_S4096x64_S64x256_S4096x256_1_0_0_1_n_n 64 rfl rfl).symm]
  refine Finset.sum_congr rfl fun k _ => ?_
  have hk := ValueIdx.contrEquiv1_symm_val dot_S4096x64_S64x256_S4096x256_1_0_0_1_n_n 64 rfl rfl k
  have el : dot_S4096x64_S64x256_S4096x256_1_0_0_1_n_n.lhsIdx (ix2 p h)
      ((ValueIdx.contrEquiv1 dot_S4096x64_S64x256_S4096x256_1_0_0_1_n_n 64 rfl rfl).symm k) = ix2 p k :=
    funext fun a => Fin.ext (by
      match a with
      | ⟨0, _⟩ => exact lhs_0 _ _
      | ⟨1, _⟩ => exact (lhs_1 _ _).trans hk)
  have er : dot_S4096x64_S64x256_S4096x256_1_0_0_1_n_n.rhsIdx (ix2 p h)
      ((ValueIdx.contrEquiv1 dot_S4096x64_S64x256_S4096x256_1_0_0_1_n_n 64 rfl rfl).symm k) = ix2 k h :=
    funext fun a => Fin.ext (by
      match a with
      | ⟨0, _⟩ => exact (rhs_0 _ _).trans hk
      | ⟨1, _⟩ => exact rhs_1 _ _)
  rw [el, er]

/-- The one-entry bias spread over the 4096 rows, read at a row: the entry. -/
theorem bias_apply (x4 : FVec Ideal S1 .f32) (h : S1.Broadcasts S4096) (p : Fin 4096) :
    broadcastTo S4096 x4 h (ix1 p) = x4 (ix1 (0 : Fin 1)) :=
  broadcastTo_apply x4 h (ix1 p) (ix1 (0 : Fin 1)) fun a => by
    match a with
    | ⟨0, _⟩ => show 0 = if (1 : ℕ) = 1 then 0 else _; rw [if_pos rfl]

/-- The body's stored value at row `p` of the block. -/
theorem pay_apply (x0 : FVec Ideal S4096x64 .f32) (x1 : FVec Ideal S256x64 .f32) (x2 : FVec Ideal S1x256 .f32)
    (x3 : FVec Ideal S1x256 .f32) (x4 : FVec Ideal S1 .f32) (p : Fin 4096) :
    k0_pay1 (F := Ideal) x0 x1 x2 x3 x4 (ix1 p)
      = (∑ h : Fin 256, Ideal.exp (min (((∑ d : Fin 64, x0 (ix2 p d) * x1 (ix2 h d)) - ∑ d : Fin 64, x0 (ix2 p d) * x0 (ix2 p d))
            - x2 (ix2 (0 : Fin 1) h)) 0) * x3 (ix2 (0 : Fin 1) h)) + x4 (ix1 (0 : Fin 1)) := by
  unfold k0_pay1
  simp only [addf_apply]
  refine congrArg₂ (· + ·) ((rowSum_apply _ _ _ _ p).trans (Finset.sum_congr rfl fun h _ => ?_)) (bias_apply x4 _ p)
  -- one centre's term: the exponential of the clamped value, times the head weight
  simp only [mulf_apply, subf_apply, minimumf_apply, exp_apply, broadcast_apply, Ideal.ofBits_def, Ideal.ofBits_zero_f32]
  refine congrArg₂ (fun a b : EReal => Ideal.exp (min a 0) * b)
    (congrArg₂ (· - ·) (congrArg₂ (· - ·) ?_ ?_) ?_) ?_
  · -- the inner product with the doubled centre
    refine (dot_apply _ _ p h).trans (Finset.sum_congr rfl fun d _ => congrArg (x0 (ix2 p d) * ·) ?_)
    exact (transpose_ix2_apply _ _ d h).trans (congrFun (shapeCast_self x1 _) (ix2 h d))
  · -- the row's squared norm, kept as a column and spread over the centres
    exact (Cert.LibKeepdims.broadcastTo_a1_ab_apply _ _ p h).trans
      ((Cert.LibKeepdims.shapeCast_a_a1_apply _ _ p (0 : Fin 1)).trans (rowSum_apply _ _ _ _ p))
  · -- the centre's squared norm, a row spread over the 4096 rows
    exact (broadcastTo_1b_ab_apply _ _ p h).trans (congrFun (shapeCast_self x2 _) _)
  · -- the head weight, a row flattened and restored, then spread over the 4096 rows
    exact (broadcastTo_1b_ab_apply _ _ p h).trans (congrFun (shapeCast_shapeCast x3 _ _) _)

end Cert.RbfBody

end
-- ==== Proof.RbfBlocks.lean ====
/-
  From blocks to the array: what the kernel's one-dimensional result holds after all 128 grid points.

  Grid point t stages rows 4096·t … 4096·t + 4095 of X and the whole of the four small arrays (the doubled centres,
  the centres' squared norms, the head weights, the bias), and writes back 4096 results at the same rows.  Row p
  of the block is row 4096·t + p of the array, so what a point writes is its block of ONE function of the arrays the
  region finds, `rows`: the kernel form of the head at each row.  The 128 blocks tile the 524288 rows (row n is in
  block n / 4096), so the array ends holding `rows`.
-/
import proofs.«162400_j16707422782018_2_alg».proof.Proof.Gen.KernelIdeal.Frame
import proofs.«162400_j16707422782018_2_alg».proof.Proof.RbfBody
import proofs.«162400_j16707422782018_2_alg».proof.Proof.RbfSpec
import Idealize.ShloMosaic.Lib.Pipeline.Value

set_option maxRecDepth 16384

noncomputable section

namespace Cert.RbfBlocks

open Cert.KernelIdeal Cert.KernelIdeal.Gen Idealize.ShloMosaic Idealize.ShloMosaic.TcCoe Idealize.SL.Sem
open Idealize.ShloMosaic.ValueIdx Cert.RbfSpec
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-- The kernel's result array as one function of the arrays the region finds: the head at each row. -/
def rows (c : Dev nD) : S524288.Idx → EReal := fun i =>
  headKer (V m c main_arg0) (V m c main_v1) (V m c main_v5) (V m c main_arg2) (V m c main_arg3) (i 0)

/-- The printed index maps over the grid: X's window and the result's window sit at block t; the small arrays'
    windows never move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = t.val :=
  (by decide +kernel : ∀ t : Fin grid0.N, _)

/-- Row `p` of X's block at point `t` is row `4096·t + p` of X. -/
theorem blk0_apply (c : Dev nD) (t : Fin cfg0.N) (p : Fin 4096) (d : Fin 64) (n : Fin 524288)
    (hn : n.val = 4096 * t.val + p.val) :
    (iblk m c 0 t : FVec Ideal S4096x64 .f32) (ix2 p d) = (V m c main_arg0 : S524288x64.Idx → EReal) (ix2 n d) := by
  obtain ⟨e00, e01, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 4096 + 1 * p.val = n.val; rw [e00, hn]; omega
  | ⟨1, _⟩ => show win0_0.index t (1 : Fin 2) * 64 + 1 * d.val = d.val; rw [e01]; omega

/-- The doubled centres' block is the whole table, at every point. -/
theorem blk1_apply (c : Dev nD) (t : Fin cfg0.N) (h : Fin 256) (d : Fin 64) :
    (iblk m c 1 t : FVec Ideal S256x64 .f32) (ix2 h d) = (V m c main_v1 : S256x64.Idx → EReal) (ix2 h d) := by
  obtain ⟨-, -, e10, e11, -⟩ := idx_facts t
  unfold iblk
  rw [View.read_apply]
  show V m c main_v1 _ = V m c main_v1 _
  refine congrArg (V m c main_v1) (funext fun a => Fin.ext ?_)
  match a with
  | ⟨0, _⟩ => show win0_1.index t (0 : Fin 2) * 256 + 1 * h.val = h.val; rw [e10]; omega
  | ⟨1, _⟩ => show win0_1.index t (1 : Fin 2) * 64 + 1 * d.val = d.val; rw [e11]; omega

/-- The squared norms' block is the whole row. -/
theorem blk2_apply (c : Dev nD) (t : Fin cfg0.N) (h : Fin 256) :
    (iblk m c 2 t : FVec Ideal S1x256 .f32) (ix2 (0 : Fin 1) h) = (V m c main_v5 : S1x256.Idx → EReal) (ix2 (0 : Fin 1) h) := by
  obtain ⟨-, -, -, -, e20, e21, -⟩ := idx_facts t
  unfold iblk
  rw [View.read_apply]
  show V m c main_v5 _ = V m c main_v5 _
  refine congrArg (V m c main_v5) (funext fun a => Fin.ext ?_)
  match a with
  | ⟨0, _⟩ => show win0_2.index t (0 : Fin 2) * 1 + 1 * 0 = 0; rw [e20]
  | ⟨1, _⟩ => show win0_2.index t (1 : Fin 2) * 256 + 1 * h.val = h.val; rw [e21]; omega

/-- The head weights' block is the whole row. -/
theorem blk3_apply (c : Dev nD) (t : Fin cfg0.N) (h : Fin 256) :
    (iblk m c 3 t : FVec Ideal S1x256 .f32) (ix2 (0 : Fin 1) h) = (V m c main_arg2 : S1x256.Idx → EReal) (ix2 (0 : Fin 1) h) := by
  obtain ⟨-, -, -, -, -, -, e30, e31, -⟩ := idx_facts t
  unfold iblk
  rw [View.read_apply]
  show V m c main_arg2 _ = V m c main_arg2 _
  refine congrArg (V m c main_arg2) (funext fun a => Fin.ext ?_)
  match a with
  | ⟨0, _⟩ => show win0_3.index t (0 : Fin 2) * 1 + 1 * 0 = 0; rw [e30]
  | ⟨1, _⟩ => show win0_3.index t (1 : Fin 2) * 256 + 1 * h.val = h.val; rw [e31]; omega

/-- The bias's block is its one entry. -/
theorem blk4_apply (c : Dev nD) (t : Fin cfg0.N) :
    (iblk m c 4 t : FVec Ideal S1 .f32) (ix1 (0 : Fin 1)) = (V m c main_arg3 : S1.Idx → EReal) (ix1 (0 : Fin 1)) := by
  obtain ⟨-, -, -, -, -, -, -, -, e40, -⟩ := idx_facts t
  unfold iblk
  rw [View.read_apply]
  show V m c main_arg3 _ = V m c main_arg3 _
  refine congrArg (V m c main_arg3) (funext fun a => Fin.ext ?_)
  match a with
  | ⟨0, _⟩ => show win0_4.index t (0 : Fin 1) * 1 + 1 * 0 = 0; rw [e40]

/-- What the body stores at entry `j` of its block at point `t` is the head at row `n = 4096·t + j`. -/
theorem block_row (c : Dev nD) (t : Fin cfg0.N) (j : S4096.Idx) (n : Fin 524288) (hn : n.val = 4096 * t.val + (j 0).val) :
    k0_pay1 (F := Ideal) (iblk m c 0 t) (iblk m c 1 t) (iblk m c 2 t) (iblk m c 3 t) (iblk m c 4 t) j
      = headKer (V m c main_arg0) (V m c main_v1) (V m c main_v5) (V m c main_arg2) (V m c main_arg3) n := by
  refine (congrArg (k0_pay1 (F := Ideal) (iblk m c 0 t) (iblk m c 1 t) (iblk m c 2 t) (iblk m c 3 t) (iblk m c 4 t))
    (eq_ix1 j)).trans ?_
  refine (Cert.RbfBody.pay_apply (iblk m c 0 t) (iblk m c 1 t) (iblk m c 2 t) (iblk m c 3 t) (iblk m c 4 t) (j 0)).trans ?_
  unfold headKer negSqDist
  refine congrArg₂ (· + ·) (Finset.sum_congr rfl fun h _ => ?_) (blk4_apply m c t)
  exact congrArg₂ (fun a b : EReal => Ideal.exp (min a 0) * b)
    (congrArg₂ (· - ·)
      (congrArg₂ (· - ·)
        (Finset.sum_congr rfl fun d _ => congrArg₂ (· * ·) (blk0_apply m c t (j 0) d n hn) (blk1_apply m c t h d))
        (Finset.sum_congr rfl fun d _ => congrArg₂ (· * ·) (blk0_apply m c t (j 0) d n hn) (blk0_apply m c t (j 0) d n hn)))
      (blk2_apply m c t h))
    (blk3_apply m c t h)

/-- What point `t` writes back is its block of `rows`. -/
theorem flushed_eq (c : Dev nD) (t : Fin cfg0.N) :
    (dats m 0 c).flushed 5 t = ((cfg0.win 5).blk t).view.read (Elt Ideal) (rows m c) := by
  show (cfg0.win 5).cut (grid0.coords t) ((dats m 0 c).after 5 t) = _
  rw [after0_5]
  unfold out0_5
  rw [View.canon_unit_zero hz1]
  simp only [View.ld_unit_zero (S := S4096x64) hz2, View.ld_unit_zero (S := S256x64) hz2,
    View.ld_unit_zero (S := S1x256) hz2, View.ld_unit_zero (S := S1) hz1]
  funext j
  show k0_pay1 (F := Ideal) (iblk m c 0 t) (iblk m c 1 t) (iblk m c 2 t) (iblk m c 3 t) (iblk m c 4 t) j
    = rows m c (((cfg0.win 5).blk t).view.emb j)
  refine block_row m c t j ((((cfg0.win 5).blk t).view.emb j) 0) ?_
  show win0_5.index t (0 : Fin 1) * 4096 + 1 * (j 0).val = 4096 * t.val + (j 0).val
  rw [(idx_facts t).2.2.2.2.2.2.2.2.2]
  omega

/-- An index of the array is in point `t`'s block iff its row is in the block's range. -/
theorem mem_blk (t : Fin cfg0.N) (i : S524288.Idx) :
    i ∈ ((cfg0.win 5).blk t).view.set ↔
      ∀ a : Fin 1, win0_5.index t a * S4096.size a ≤ (i a).val ∧ (i a).val < win0_5.index t a * S4096.size a + S4096.size a := by
  show i ∈ ((View.whole main_v6).slice (win0_5.rect t)).set ↔ _
  rw [View.set_slice_whole, Rect.mem_set_unit]
  exact Iff.rfl

/-- Every row is in some point's block: row n in block n / 4096. -/
theorem cover (i : S524288.Idx) :
    ∃ t : Fin cfg0.N, (cfg0.win 5).flush t = true ∧ i ∈ ((cfg0.win 5).blk t).view.set := by
  have hN : cfg0.N = 128 := N_0
  have hi : (i 0).val < 524288 := (i 0).isLt
  refine ⟨⟨(i 0).val / 4096, by rw [hN]; omega⟩, flush0_5 _, ?_⟩
  rw [mem_blk]
  intro a
  match a with
  | ⟨0, _⟩ =>
    show win0_5.index ⟨(i 0).val / 4096, _⟩ (0 : Fin 1) * 4096 ≤ (i 0).val
      ∧ (i 0).val < win0_5.index ⟨(i 0).val / 4096, _⟩ (0 : Fin 1) * 4096 + 4096
    rw [(idx_facts _).2.2.2.2.2.2.2.2.2]
    show (i 0).val / 4096 * 4096 ≤ (i 0).val ∧ (i 0).val < (i 0).val / 4096 * 4096 + 4096
    omega

/-- The result array after the region: `rows`. -/
theorem final (c : Dev nD) : (dats m 0 c).arrAt 5 cfg0.N = rows m c :=
  (dats m 0 c).arrAt_eq_of_cover 5 (rows m c) (fun t _ => flushed_eq m c t) cover

end Cert.RbfBlocks

end
-- ==== Proof.RbfFinite.lean ====
/-
  The precondition read as a fact about numbers: every entry of X and of the centres C is a real number.

  The precondition is the conjunction, over the four arguments, of "every entry's absolute value is below +∞".
  On the extended reals |x| = max(x, −x) is below +∞ exactly when x is neither infinity, that is, when x is a real.
-/
import proofs.«162400_j16707422782018_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.RbfFinite

open Idealize.ShloMosaic Cert.Pre_finite_inputs Cert.Pre_finite_inputs.Gen

/-- The scalar shape has one index. -/
instance : Subsingleton S_.Idx := ⟨fun a b => funext fun d => d.elim0⟩

/-- The binary32 word of +∞ denotes the top of the extended reals. -/
theorem inf_f32 : Ideal.ofBits .f32 0x7F800000#32 = ⊤ := by simp [Ideal.ofBits, Ideal.ieee]

/-- An extended real whose absolute value is below +∞ is a real number. -/
theorem real_of_lt_inf (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- Under the precondition X and C hold real numbers. -/
theorem finite_of_pre (X : FVec Ideal S524288x64 .f32) (C : FVec Ideal S256x64 .f32) (W : FVec Ideal S1x256 .f32)
    (B : FVec Ideal S1 .f32) (h : fn (F := Ideal) X C W B = fun _ => 1#1) :
    (∀ j, ∃ r : ℝ, X j = (r : EReal)) ∧ (∀ j, ∃ r : ℝ, C j = (r : EReal)) := by
  have h0 := congrFun h ValueIdx.ix0
  dsimp only [fn, fn_part1] at h0
  obtain ⟨h012, -⟩ := IntOp.andi_eq_one.mp h0
  obtain ⟨h01, -⟩ := IntOp.andi_eq_one.mp h012
  obtain ⟨hX, hC⟩ := IntOp.andi_eq_one.mp h01
  refine ⟨fun j => real_of_lt_inf (X j) ?_, fun j => real_of_lt_inf (C j) ?_⟩
  · have e : Ideal.cmp .olt (max (X j) (-(X j))) (Ideal.ofBits .f32 0x7F800000#32) = 1#1 :=
      Host.reduce_andi_all _ _ _ _ _ hX j
    rwa [inf_f32] at e
  · have e : Ideal.cmp .olt (max (C j) (-(C j))) (Ideal.ofBits .f32 0x7F800000#32) = 1#1 :=
      Host.reduce_andi_all _ _ _ _ _ hC j
    rwa [inf_f32] at e

end Cert.RbfFinite

end
-- ==== Proof.RbfRun.lean ====
/-
  The idealized kernel's run, read: its result is `headRef` of the four arguments at every row.

  Before the region the host doubles the centres (C2 = 2·C) and forms their squared norms as a row (a sum along each
  centre, kept as a column, transposed); the region leaves `rows` (RbfBlocks) in its one-dimensional result; after it
  the host recasts that result as a column.  Substituting the host's two tables into `rows` gives the kernel form of
  the head at C2 = 2·C and Nrm = ‖C‖², which is `headRef` wherever X and C are real (RbfSpec).
-/
import proofs.«162400_j16707422782018_2_alg».proof.Proof.RbfBlocks
import proofs.«162400_j16707422782018_2_alg».proof.Proof.RbfFinite
import proofs.«162400_j16707422782018_2_alg».proof.Defs
import Idealize.ShloMosaic.Lib.StableHlo.Run
import Idealize.ShloMosaic.Lib.ValueLayout

set_option maxRecDepth 16384

noncomputable section

namespace Cert.RbfRun

open Cert.KernelIdeal Cert.KernelIdeal.Gen Idealize.ShloMosaic Idealize.ShloMosaic.TcCoe Idealize.SL.Sem
open Idealize.ShloMosaic.ValueIdx Cert.RbfSpec Idealize.ShloMosaic.StableHlo

variable (m : (ℓ : Loc nD τ sig) → Buf (Elt Ideal) ℓ) (ρ : Dev nD → PrngReg)

/-- The four arguments as the program is launched with them, as plain arrays of extended reals. -/
abbrev argX (c : Dev nD) : ArrX := m ((c : Thread nD τ).loc main_arg0)
abbrev argC (c : Dev nD) : ArrC := m ((c : Thread nD τ).loc main_arg1)
abbrev argW (c : Dev nD) : ArrW := m ((c : Thread nD τ).loc main_arg2)
abbrev argB (c : Dev nD) : ArrB := m ((c : Thread nD τ).loc main_arg3)

/-! ## The host operations before the region -/

/-- The table the region finds as its second operand: the constant 2 spread over the table's shape, times C. -/
theorem V1_eq (c : Dev nD) : (V m c main_v1 : S256x64.Idx → EReal)
    = mulf (broadcastInDim S256x64 ![] bcast_S_S256x64 (constant (F := Ideal) S_ .f32 0x40000000#32)) (argC m c) := by
  show StableHlo.after hostOps0 (fun b => m (c, b)) (Proc.devRef .tc main_v1) = _
  after_results

/-- The row the region finds as its third operand: C·C summed along each centre, kept as a column, transposed. -/
theorem V5_eq (c : Dev nD) : (V m c main_v5 : S1x256.Idx → EReal)
    = transpose S1x256 [1, 0] (broadcastInDim S256x1 ![0] bcast_S256_S256x1_0
        (Host.reduceAdd (F := Ideal) (mulf (argC m c) (argC m c))
          (constant (F := Ideal) S_ .f32 0x00000000#32) reducesTo_S256x64_S256_d1 h_S_)) transposes_S256x1_S1x256_1_0 := by
  show StableHlo.after hostOps0 (fun b => m (c, b)) (Proc.devRef .tc main_v5) = _
  after_results

/-- The doubled centres at (h, d): 2·C(h, d). -/
theorem V1_apply (c : Dev nD) (h : Fin 256) (d : Fin 64) :
    (V m c main_v1 : S256x64.Idx → EReal) (ix2 h d) = two * argC m c (ix2 h d) := by
  rw [V1_eq]
  show (broadcastInDim S256x64 ![] bcast_S_S256x64 (constant (F := Ideal) S_ .f32 0x40000000#32)) (ix2 h d) * _ = _
  rw [broadcastInDim_apply _ bcast_S_S256x64 _ (ix2 h d) ix0 (fun a => a.elim0)]
  rfl

/-- The squared norms' row at h: the host sum's initial value 0 plus Σ_d C(h, d)². -/
theorem V5_apply (c : Dev nD) (u : Fin 1) (h : Fin 256) :
    (V m c main_v5 : S1x256.Idx → EReal) (ix2 u h) = 0 + ∑ d : Fin 64, argC m c (ix2 h d) * argC m c (ix2 h d) := by
  -- a length-256 vector kept as a 256 × 1 column, read at (h, u): the vector at h
  have hcol : ∀ y : S256.Idx → EReal, broadcastInDim S256x1 ![0] bcast_S256_S256x1_0 y (ix2 h u) = y (ix1 h) := fun y =>
    broadcastInDim_apply (s := S256) (t := S256x1) ![0] bcast_S256_S256x1_0 y (ix2 h u) (ix1 h) (fun (a : Fin S256.rank) =>
      match a with
      | ⟨0, _⟩ => by show h.val = if (256 : Nat) = 1 then 0 else h.val; rw [if_neg (by decide)])
  rw [V5_eq, transpose_ix2_apply, hcol]
  simp only [Host.reduceAdd, Ideal.hostReduceAdd_def]
  rw [Ideal.hostReduceAdd_single reducesTo_S256x64_S256_d1 (by decide)]
  refine congrArg₂ (· + ·) Ideal.ofBits_zero_f32 (Finset.sum_congr rfl fun k _ => ?_)
  exact congrArg (mulf (argC m c) (argC m c) : FVec Ideal S256x64 .f32) (funext fun (a : Fin S256x64.rank) => Fin.ext (by
    match a with
    | ⟨0, _⟩ => rfl
    | ⟨1, _⟩ => rfl))

/-- The doubled centres as one function of C. -/
theorem V1_fun (c : Dev nD) : (V m c main_v1 : ArrC) = fun j => two * argC m c j := by
  funext j
  rw [eq_ix2 j]
  exact V1_apply m c (j 0) (j 1)

/-- The squared norms' row as one function of C. -/
theorem V5_fun (c : Dev nD) :
    (V m c main_v5 : ArrW) = fun j => 0 + ∑ d : Fin 64, argC m c (ix2 (j 1) d) * argC m c (ix2 (j 1) d) := by
  funext j
  rw [eq_ix2 j]
  exact V5_apply m c (j 0) (j 1)

/-! ## The region's result as `headRef` -/

/-- With X and C real, the region's result at row i is the head at that row. -/
theorem rows_eq (c : Dev nD) (hX : ∀ j, ∃ r : ℝ, argX m c j = (r : EReal)) (hC : ∀ j, ∃ r : ℝ, argC m c j = (r : EReal))
    (i : S524288.Idx) :
    Cert.RbfBlocks.rows m c i = headRef (argX m c) (argC m c) (argW m c) (argB m c) (i 0) := by
  unfold Cert.RbfBlocks.rows
  rw [V_main_arg0 m c, V_main_arg2 m c, V_main_arg3 m c, V1_fun m c, V5_fun m c]
  exact headKer_eq_headRef (argX m c) (argC m c) (argW m c) (argB m c) hX hC (i 0)

/-! ## The host operation after the region -/

/-- The program's result: the region's one-dimensional result recast as a column. -/
theorem tail_eq (c : Dev nD) : Pipeline.afterTail₀ cfgs (dats m) 0 (V0 m) [hostOps1] c main_v7
    = (fun i : S524288x1.Idx => Cert.RbfBlocks.rows m c (ix1 (i 0))) := by
  unfold Pipeline.afterTail₀
  show StableHlo.after hostOps1 _ (Proc.devRef .tc main_v7) = _
  after_results
  funext i
  show shapeCast S524288x1 (Pipeline.withArrays spec0 c (V0 m c) (fun w => (dats m 0 c).arrAt w cfg0.N)
    (Proc.devRef .tc main_v6)) shapeCasts_S524288_S524288x1 i = _
  rw [show Pipeline.withArrays spec0 c (V0 m c) (fun w => (dats m 0 c).arrAt w cfg0.N) (Proc.devRef .tc main_v6)
      = Cert.RbfBlocks.rows m c from
    (Pipeline.withArrays_arr spec0 launch0.win.arr_inj c (V0 m c) (fun w => (dats m 0 c).arrAt w cfg0.N) 5).trans
      (Cert.RbfBlocks.final m c)]
  obtain ⟨n, u, rfl⟩ : ∃ (n : Fin 524288) (u : Fin 1), i = ix2 n u := ⟨i 0, i 1, eq_ix2 i⟩
  exact Cert.LibKeepdims.shapeCast_a_a1_apply _ _ n u

/-! ## The run -/

/-- Under the precondition: every weakly fair execution terminates with the result at `headRef` of the arguments,
    row by row, and the arguments unchanged. -/
theorem run (hpre : Cert.Pre_KernelIdeal m) :
    θ_run defs (onTc (τ := τ) (main (F := Ideal))) ⟨m, fun _ => 0, ρ⟩ fun r => ∀ c : Dev nD,
      r.2.mem ((c.tc : Thread nD τ).loc main_v7)
          = (fun i : S524288x1.Idx => headRef (argX m c) (argC m c) (argW m c) (argB m c) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run_main m ρ)
  obtain ⟨hX, hC⟩ := Cert.RbfFinite.finite_of_pre (argX m c) (argC m c) (argW m c) (argB m c) (hpre c)
  refine ⟨?_, ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).1 3).trans (((dats m 0 c).arrAt_in 3 rfl _).trans ((A_eq m c 3).trans (V_main_arg2 m c))),
    ((h c).1 4).trans (((dats m 0 c).arrAt_in 4 rfl _).trans ((A_eq m c 4).trans (V_main_arg3 m c)))⟩
  refine (((h c).2 main_v7 (Pipeline.mem_restRefs_of main_v7 (by decide) (by decide))).trans (tail_eq m c)).trans ?_
  funext i
  exact rows_eq m c hX hC (ix1 (i 0))

end Cert.RbfRun

end
-- ==== Proof.lean ====
/-
  A radial-basis feature map with a linear head, computed two ways.

  Both programs take X (524288 rows of 64), centres C (256 of 64), head weights W (one row of 256) and a bias B, and
  return, for every row n,
      out n = Σ_h exp(−max(‖X_n‖² − 2·⟨X_n, C_h⟩ + ‖C_h‖², 0)) · W_h + B.
  The reference forms the clamped squared distance as written.  The kernel has the host double the centres and sum
  their squares first, then per block of 4096 rows forms ⟨X_n, 2·C_h⟩ on the matrix unit, subtracts the row's and the
  centre's squared norms, clamps the negated distance from above, exponentiates, and takes the weighted sum along
  the centres; the host recasts the 524288 results as a column.

  On exact extended reals the narrowing of the matrix unit's operands is the identity and every sum is exact, so the
  two differ only in how the clamped distance is written: min(⟨X_n, 2·C_h⟩ − ‖X_n‖² − ‖C_h‖², 0) against
  −max(‖X_n‖² − 2·⟨X_n, C_h⟩ + ‖C_h‖², 0).  These agree over the reals (RbfLaw); negating a sum and moving the factor 2
  across a sum fail at the infinities, which is where the precondition — every input entry finite — is used
  (RbfFinite).  RbfSpec states the function in both forms and joins them; RbfRef reads the reference's result at an
  index; RbfBody reads the kernel body's stored value at a row of its block; RbfBlocks carries the 128 blocks to the
  whole array; RbfRun reads the host operations around the region and states the kernel's run.

  The three frames are the generated ones (the reference's is its generated run with the result dropped); the
  idealization rewrote no operation, so its conjunct is trivial.
-/
import proofs.«162400_j16707422782018_2_alg».proof.Defs
import proofs.«162400_j16707422782018_2_alg».proof.Proof.Gen.Kernel
import proofs.«162400_j16707422782018_2_alg».proof.Proof.Gen.Kernel.Skeleton
import proofs.«162400_j16707422782018_2_alg».proof.Proof.Gen.Kernel.Launch
import proofs.«162400_j16707422782018_2_alg».proof.Proof.Gen.Kernel.Points
import proofs.«162400_j16707422782018_2_alg».proof.Proof.Gen.Kernel.Frame
import proofs.«162400_j16707422782018_2_alg».proof.Proof.Gen.KernelIdeal
import proofs.«162400_j16707422782018_2_alg».proof.Proof.Gen.KernelIdeal.Skeleton
import proofs.«162400_j16707422782018_2_alg».proof.Proof.Gen.KernelIdeal.Launch
import proofs.«162400_j16707422782018_2_alg».proof.Proof.Gen.KernelIdeal.Points
import proofs.«162400_j16707422782018_2_alg».proof.Proof.Gen.KernelIdeal.Frame
import proofs.«162400_j16707422782018_2_alg».proof.Proof.Gen.ReferenceIdeal
import proofs.«162400_j16707422782018_2_alg».proof.Proof.Gen.ReferenceIdeal.Run
import proofs.«162400_j16707422782018_2_alg».proof.Proof.Gen.ReferenceIdeal.Read
import proofs.«162400_j16707422782018_2_alg».proof.Proof.Gen.Pre_finite_inputs
import proofs.«162400_j16707422782018_2_alg».proof.Proof.RbfRef
import proofs.«162400_j16707422782018_2_alg».proof.Proof.RbfRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the four arguments, with the kernel's finite: both runs end with the head of the
    arguments at every row — the kernel's by RbfRun, the reference's by its generated run read index by index. -/
theorem algebraic : Cert.algebraic_KernelIdeal_ReferenceIdeal := by
  intro m ρ m' ρ' hpre hagree
  refine ⟨fun c => fun i => Cert.RbfSpec.headRef (Cert.RbfRun.argX m c) (Cert.RbfRun.argC m c) (Cert.RbfRun.argW m c)
    (Cert.RbfRun.argB m c) (i 0), Cert.RbfRun.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.RbfRef.result_eq, (hagree c).1, (hagree c).2.1, (hagree c).2.2.1,
    (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
